-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x64x4 : Shape := ⟨4, ![32, 4096, 64, 4]⟩
abbrev S_ : Shape := ⟨0, ![]⟩

class Facts : Prop where
  bcast_S_S32x4096x64x4 : S_.BroadcastsInDim S32x4096x64x4 (![] : Fin 0 → Fin S32x4096x64x4.rank)
  reducesTo_S32x4096x64x4_S_d0_1_2_3 : S32x4096x64x4.ReducesTo [0, 1, 2, 3] S_
  h_S_ : 0 < S_.numel

variable [Facts]

def fn {F : FTy → Type} [FloatOps F] (main_arg0 : FVec F S32x4096x64x4 .f32) (main_arg1 : FVec F S32x4096x64x4 .f32) : IVec S_ 1 :=
  let main_v0 : FVec F S32x4096x64x4 .f32 := Host.absf main_arg0
  let main_cst : FVec F S_ .f32 := constant S_ .f32 0x7F800000#32
  let main_v1 : FVec F S32x4096x64x4 .f32 := broadcastInDim S32x4096x64x4 ![] bcast_S_S32x4096x64x4 main_cst
  let main_v2 : IVec S32x4096x64x4 1 := cmpf .olt main_v0 main_v1
  let main_c : IVec S_ 1 := constantI S_ 1 1#1
  let main_v3 : IVec S_ 1 := (fun x v => Host.reduce IntOp.andi x v reducesTo_S32x4096x64x4_S_d0_1_2_3 h_S_) main_v2 main_c
  let main_v4 : FVec F S32x4096x64x4 .f32 := Host.absf main_arg1
  let main_cst_0 : FVec F S_ .f32 := constant S_ .f32 0x7F800000#32
  let main_v5 : FVec F S32x4096x64x4 .f32 := broadcastInDim S32x4096x64x4 ![] bcast_S_S32x4096x64x4 main_cst_0
  let main_v6 : IVec S32x4096x64x4 1 := cmpf .olt main_v4 main_v5
  let main_c_1 : IVec S_ 1 := constantI S_ 1 1#1
  let main_v7 : IVec S_ 1 := (fun x v => Host.reduce IntOp.andi x v reducesTo_S32x4096x64x4_S_d0_1_2_3 h_S_) main_v6 main_c_1
  let main_v8 : IVec S_ 1 := andi main_v3 main_v7
  main_v8
-- ==== Kernel.lean ====
abbrev S32x4096x64x4 : Shape := ⟨4, ![32, 4096, 64, 4]⟩
abbrev S1x128x64x4 : Shape := ⟨4, ![1, 128, 64, 4]⟩
abbrev S1x128x64x1 : Shape := ⟨4, ![1, 128, 64, 1]⟩
abbrev S128x64 : Shape := ⟨2, ![128, 64]⟩

abbrev nBuf : Space → Nat
  | .hbm => 3
  | .vmem => 6
  | .smem => 0
  | _ => 0

abbrev bufTy : (tb : Table) → Fin (tcTables nBuf tb) → BufTy
  | .hbm, ⟨0, _⟩ => ⟨S32x4096x64x4, .f32⟩
  | .hbm, ⟨1, _⟩ => ⟨S32x4096x64x4, .f32⟩
  | .hbm, ⟨2, _⟩ => ⟨S32x4096x64x4, .f32⟩
  | .local _ .vmem, ⟨0, _⟩ => ⟨S1x128x64x4, .f32⟩
  | .local _ .vmem, ⟨1, _⟩ => ⟨S1x128x64x4, .f32⟩
  | .local _ .vmem, ⟨2, _⟩ => ⟨S1x128x64x4, .f32⟩
  | .local _ .vmem, ⟨3, _⟩ => ⟨S1x128x64x4, .f32⟩
  | .local _ .vmem, ⟨4, _⟩ => ⟨S1x128x64x4, .f32⟩
  | .local _ .vmem, ⟨5, _⟩ => ⟨S1x128x64x4, .f32⟩
  | _, _ => ⟨S32x4096x64x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x64x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x128x64x4_S1x128x64x1_0_0_0_0 : ∀ a, (![0, 0, 0, 0] : Fin 4 → Nat) a + S1x128x64x1.size a ≤ S1x128x64x4.size a
  h_S1x128x64x1 : 0 < S1x128x64x1.numel
  shapeCasts_S1x128x64x1_S128x64 : S1x128x64x1.ShapeCasts S128x64
  inb_S1x128x64x4_S1x128x64x1_0_0_0_1 : ∀ a, (![0, 0, 0, 1] : Fin 4 → Nat) a + S1x128x64x1.size a ≤ S1x128x64x4.size a
  inb_S1x128x64x4_S1x128x64x1_0_0_0_2 : ∀ a, (![0, 0, 0, 2] : Fin 4 → Nat) a + S1x128x64x1.size a ≤ S1x128x64x4.size a
  inb_S1x128x64x4_S1x128x64x1_0_0_0_3 : ∀ a, (![0, 0, 0, 3] : Fin 4 → Nat) a + S1x128x64x1.size a ≤ S1x128x64x4.size a
  shapeCasts_S128x64_S1x128x64x1 : S128x64.ShapeCasts S1x128x64x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64x4.size a ≤ S32x4096x64x4.size a
  hwx0_0 : ∀ i : grid0.Coords, EltTy.bits .f32 = 32 ∨ (Rect.block (s := S32x4096x64x4) S1x128x64x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64x4.size a ≤ S32x4096x64x4.size a
  hwx0_1 : ∀ i : grid0.Coords, EltTy.bits .f32 = 32 ∨ (Rect.block (s := S32x4096x64x4) S1x128x64x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64x4.size a ≤ S32x4096x64x4.size a
  hwx0_2 : ∀ i : grid0.Coords, EltTy.bits .f32 = 32 ∨ (Rect.block (s := S32x4096x64x4) S1x128x64x4.size (cc0_transform_2 i) (hinb0_2 i)).WholeWords (EltTy.packing .f32)

variable [Facts₀]

abbrev win0_0 : Pipeline.Window sig grid0 :=
  Pipeline.Window.ofSpec (Memref.whole main_arg0) S1x128x64x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x64x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x64x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4096x64x4 : Shape := ⟨4, ![32, 4096, 64, 4]⟩
abbrev S32x4096x64x1 : Shape := ⟨4, ![32, 4096, 64, 1]⟩
abbrev S32x4096x64 : Shape := ⟨3, ![32, 4096, 64]⟩

abbrev nBuf : Space → Nat
  | .hbm => 51
  | .vmem => 0
  | .smem => 0
  | _ => 0

abbrev bufTy : (tb : Table) → Fin (tcTables nBuf tb) → BufTy
  | .hbm, ⟨0, _⟩ => ⟨S32x4096x64x4, .f32⟩
  | .hbm, ⟨1, _⟩ => ⟨S32x4096x64x4, .f32⟩
  | .hbm, ⟨2, _⟩ => ⟨S32x4096x64x1, .f32⟩
  | .hbm, ⟨3, _⟩ => ⟨S32x4096x64, .f32⟩
  | .hbm, ⟨4, _⟩ => ⟨S32x4096x64x1, .f32⟩
  | .hbm, ⟨5, _⟩ => ⟨S32x4096x64, .f32⟩
  | .hbm, ⟨6, _⟩ => ⟨S32x4096x64x1, .f32⟩
  | .hbm, ⟨7, _⟩ => ⟨S32x4096x64, .f32⟩
  | .hbm, ⟨8, _⟩ => ⟨S32x4096x64x1, .f32⟩
  | .hbm, ⟨9, _⟩ => ⟨S32x4096x64, .f32⟩
  | .hbm, ⟨10, _⟩ => ⟨S32x4096x64x1, .f32⟩
  | .hbm, ⟨11, _⟩ => ⟨S32x4096x64, .f32⟩
  | .hbm, ⟨12, _⟩ => ⟨S32x4096x64x1, .f32⟩
  | .hbm, ⟨13, _⟩ => ⟨S32x4096x64, .f32⟩
  | .hbm, ⟨14, _⟩ => ⟨S32x4096x64x1, .f32⟩
  | .hbm, ⟨15, _⟩ => ⟨S32x4096x64, .f32⟩
  | .hbm, ⟨16, _⟩ => ⟨S32x4096x64x1, .f32⟩
  | .hbm, ⟨17, _⟩ => ⟨S32x4096x64, .f32⟩
  | .hbm, ⟨18, _⟩ => ⟨S32x4096x64, .f32⟩
  | .hbm, ⟨19, _⟩ => ⟨S32x4096x64, .f32⟩
  | .hbm, ⟨20, _⟩ => ⟨S32x4096x64, .f32⟩
  | .hbm, ⟨21, _⟩ => ⟨S32x4096x64, .f32⟩
  | .hbm, ⟨22, _⟩ => ⟨S32x4096x64, .f32⟩
  | .hbm, ⟨23, _⟩ => ⟨S32x4096x64, .f32⟩
  | .hbm, ⟨24, _⟩ => ⟨S32x4096x64, .f32⟩
  | .hbm, ⟨25, _⟩ => ⟨S32x4096x64, .f32⟩
  | .hbm, ⟨26, _⟩ => ⟨S32x4096x64, .f32⟩
  | .hbm, ⟨27, _⟩ => ⟨S32x4096x64, .f32⟩
  | .hbm, ⟨28, _⟩ => ⟨S32x4096x64, .f32⟩
  | .hbm, ⟨29, _⟩ => ⟨S32x4096x64, .f32⟩
  | .hbm, ⟨30, _⟩ => ⟨S32x4096x64, .f32⟩
  | .hbm, ⟨31, _⟩ => ⟨S32x4096x64, .f32⟩
  | .hbm, ⟨32, _⟩ => ⟨S32x4096x64, .f32⟩
  | .hbm, ⟨33, _⟩ => ⟨S32x4096x64, .f32⟩
  | .hbm, ⟨34, _⟩ => ⟨S32x4096x64, .f32⟩
  | .hbm, ⟨35, _⟩ => ⟨S32x4096x64, .f32⟩
  | .hbm, ⟨36, _⟩ => ⟨S32x4096x64, .f32⟩
  | .hbm, ⟨37, _⟩ => ⟨S32x4096x64, .f32⟩
  | .hbm, ⟨38, _⟩ => ⟨S32x4096x64, .f32⟩
  | .hbm, ⟨39, _⟩ => ⟨S32x4096x64, .f32⟩
  | .hbm, ⟨40, _⟩ => ⟨S32x4096x64, .f32⟩
  | .hbm, ⟨41, _⟩ => ⟨S32x4096x64, .f32⟩
  | .hbm, ⟨42, _⟩ => ⟨S32x4096x64, .f32⟩
  | .hbm, ⟨43, _⟩ => ⟨S32x4096x64, .f32⟩
  | .hbm, ⟨44, _⟩ => ⟨S32x4096x64, .f32⟩
  | .hbm, ⟨45, _⟩ => ⟨S32x4096x64, .f32⟩
  | .hbm, ⟨46, _⟩ => ⟨S32x4096x64x1, .f32⟩
  | .hbm, ⟨47, _⟩ => ⟨S32x4096x64x1, .f32⟩
  | .hbm, ⟨48, _⟩ => ⟨S32x4096x64x1, .f32⟩
  | .hbm, ⟨49, _⟩ => ⟨S32x4096x64x1, .f32⟩
  | .hbm, ⟨50, _⟩ => ⟨S32x4096x64x4, .f32⟩
  | _, _ => ⟨S32x4096x64x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩

abbrev nD : Nat := 1
abbrev τ : Topo := Topo.v7x

variable {F : FTy → Type} [FloatOps F]

class Facts₀ : Prop where
  slices_S32x4096x64x4_S32x4096x64x1_0_0_0_0 : S32x4096x64x4.Slices ![0, 0, 0, 0] S32x4096x64x1
  shapeCasts_S32x4096x64x1_S32x4096x64 : S32x4096x64x1.ShapeCasts S32x4096x64
  slices_S32x4096x64x4_S32x4096x64x1_0_0_0_1 : S32x4096x64x4.Slices ![0, 0, 0, 1] S32x4096x64x1
  slices_S32x4096x64x4_S32x4096x64x1_0_0_0_2 : S32x4096x64x4.Slices ![0, 0, 0, 2] S32x4096x64x1
  slices_S32x4096x64x4_S32x4096x64x1_0_0_0_3 : S32x4096x64x4.Slices ![0, 0, 0, 3] S32x4096x64x1
  bcast_S32x4096x64_S32x4096x64x1_0_1_2 : S32x4096x64.BroadcastsInDim S32x4096x64x1 (![0, 1, 2] : Fin 3 → Fin S32x4096x64x1.rank)
  concatenates_S32x4096x64x1_S32x4096x64x1_S32x4096x64x1_S32x4096x64x1_S32x4096x64x4_d3 : Shape.Concatenates [S32x4096x64x1, S32x4096x64x1, S32x4096x64x1, S32x4096x64x1] S32x4096x64x4 3

variable [Facts₀]

class Facts : Prop extends Facts₀ where

variable [Facts]
-- ==== Proof.Quaternion.lean ====
/-
  The Hamilton product of quaternions.

  A quaternion is a quadruple (w, x, y, z). The product of a = (a₀, a₁, a₂, a₃) and b = (b₀, b₁, b₂, b₃) has the components
    w :  a₀·b₀ − a₁·b₁ − a₂·b₂ − a₃·b₃
    x :  a₀·b₁ + a₁·b₀ + a₂·b₃ − a₃·b₂
    y :  a₀·b₂ − a₁·b₃ + a₂·b₀ + a₃·b₁
    z :  a₀·b₃ + a₁·b₂ − a₂·b₁ + a₃·b₀
  and here each of the four is summed from the left, in exactly the order written. The order is part of the definition:
  over the extended reals sums that involve infinities do not regroup freely, so the product is fixed with ONE grouping,
  and two computations that both use this grouping agree without any law of arithmetic — for every reading of the
  float operations, the extended reals among them.

  An ARRAY of quaternions of shape [A, B, C, 4] stores one quaternion along its last axis. The product of two such
  arrays multiplies, at every triple of leading coordinates, the two quaternions stored there.
-/
import Idealize.ShloMosaic.Lib.ValueIdx

noncomputable section

namespace Cert.Quaternion

open Idealize.ShloMosaic Idealize.ShloMosaic.ValueIdx

variable {F : FTy → Type} [FloatOps F]

/-- The four components of the product of the quaternions `a` and `b`, each summed from the left. -/
def mul (a b : Fin 4 → F .f32) : Fin 4 → F .f32 :=
  ![FloatOps.subf (FloatOps.subf (FloatOps.subf (FloatOps.mulf (a 0) (b 0)) (FloatOps.mulf (a 1) (b 1))) (FloatOps.mulf (a 2) (b 2))) (FloatOps.mulf (a 3) (b 3)),
    FloatOps.subf (FloatOps.addf (FloatOps.addf (FloatOps.mulf (a 0) (b 1)) (FloatOps.mulf (a 1) (b 0))) (FloatOps.mulf (a 2) (b 3))) (FloatOps.mulf (a 3) (b 2)),
    FloatOps.addf (FloatOps.addf (FloatOps.subf (FloatOps.mulf (a 0) (b 2)) (FloatOps.mulf (a 1) (b 3))) (FloatOps.mulf (a 2) (b 0))) (FloatOps.mulf (a 3) (b 1)),
    FloatOps.addf (FloatOps.subf (FloatOps.addf (FloatOps.mulf (a 0) (b 3)) (FloatOps.mulf (a 1) (b 2))) (FloatOps.mulf (a 2) (b 1))) (FloatOps.mulf (a 3) (b 0))]

/-- The quaternion that an array of shape [A, B, C, 4] stores at the leading coordinates `(a, b, c)`. -/
def stored {A B C : Nat} (q : (⟨4, ![A, B, C, 4]⟩ : Shape).Idx → Elt F .f32) (a : Fin A) (b : Fin B) (c : Fin C) : Fin 4 → F .f32 :=
  fun k => q (ix4 a b c k)

/-- The product of two arrays of quaternions: entry `(a, b, c, k)` is component `k` of the product of the
    quaternions the two arrays store at `(a, b, c)`. -/
def arrayMul {A B C : Nat} (p q : (⟨4, ![A, B, C, 4]⟩ : Shape).Idx → Elt F .f32) :
    (⟨4, ![A, B, C, 4]⟩ : Shape).Idx → Elt F .f32 :=
  fun j => mul (stored p (j 0) (j 1) (j 2)) (stored q (j 0) (j 1) (j 2)) (j 3)

/-- The product at an index given by its coordinates. -/
theorem arrayMul_ix4 {A B C : Nat} (p q : (⟨4, ![A, B, C, 4]⟩ : Shape).Idx → Elt F .f32) (a : Fin A) (b : Fin B) (c : Fin C) (k : Fin 4) :
    arrayMul p q (ix4 a b c k) = mul (stored p a b c) (stored q a b c) k := rfl

end Cert.Quaternion

end
-- ==== Proof.KernelBlock.lean ====
/-
  What the kernel's body leaves in one output block.

  A block of either input is an array of shape [1, 128, 64, 4]: 128 × 64 quaternions, one along the last axis. The body
  reads each of the eight LANES (the four components of each input) as an array of shape [1, 128, 64, 1], re-lays it as a
  128 × 64 plane, combines the planes entry by entry, re-lays each of the four results as a lane and stores it in the
  lane of the output block that carries that component. The two re-layings keep the row-major position, and a lane's
  only coordinates that vary are the middle two; so a plane at (p, q) is its lane at (·, p, q, ·), the round trip is
  the identity, and every stored entry is the corresponding component of the product of the two quaternions the input
  blocks store at the same leading coordinates. The four lanes tile the block, hence the block the body leaves IS the
  product of the two input blocks (Proof/Quaternion.lean), for every reading of the float operations.
-/
import proofs.«103763_j32401233281622_2_alg».proof.Proof.Gen.KernelIdeal.Frame
import proofs.«103763_j32401233281622_2_alg».proof.Proof.Quaternion
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.Quaternion

variable {F : FTy → Type} [FloatOps F]

/-! ## Lanes and planes -/

/-- A plane re-laid as a lane, read at `x`: the plane at the lane's two middle coordinates. -/
theorem lane_of_plane (w : FVec F S128x64 .f32) (x : S1x128x64x1.Idx) :
    shapeCast S1x128x64x1 w shapeCasts_S128x64_S1x128x64x1 x = w (ix2 (x 1) (x 2)) :=
  shapeCast_apply w shapeCasts_S128x64_S1x128x64x1 x (ix2 (x 1) (x 2)) (by
    rw [Shape.rowMajor_val_two, Shape.rowMajor_val_four]
    have h0 : (x 0).val < 1 := (x 0).isLt
    have h3 : (x 3).val < 1 := (x 3).isLt
    show (x 1).val * 64 + (x 2).val = (((x 0).val * 128 + (x 1).val) * 64 + (x 2).val) * 1 + (x 3).val
    omega)

/-- A lane re-laid as a plane, read at the two middle coordinates of `x`: the lane at `x`. -/
theorem plane_of_lane (v : Vec F S1x128x64x1 .f32) (x : S1x128x64x1.Idx) :
    shapeCast S128x64 v shapeCasts_S1x128x64x1_S128x64 (ix2 (x 1) (x 2)) = v x :=
  shapeCast_apply v shapeCasts_S1x128x64x1_S128x64 (ix2 (x 1) (x 2)) x (by
    rw [Shape.rowMajor_val_two, Shape.rowMajor_val_four]
    have h0 : (x 0).val < 1 := (x 0).isLt
    have h3 : (x 3).val < 1 := (x 3).isLt
    show (((x 0).val * 128 + (x 1).val) * 64 + (x 2).val) * 1 + (x 3).val = (x 1).val * 64 + (x 2).val
    omega)

/-- Each of the eight loaded lanes, as the plane the body makes of it, at the two middle coordinates of `x`. -/
theorem pay5_apply (v : Vec F S1x128x64x1 .f32) (x : S1x128x64x1.Idx) : k0_pay5 (F := F) v (ix2 (x 1) (x 2)) = v x := plane_of_lane v x
theorem pay6_apply (v : Vec F S1x128x64x1 .f32) (x : S1x128x64x1.Idx) : k0_pay6 (F := F) v (ix2 (x 1) (x 2)) = v x := plane_of_lane v x
theorem pay7_apply (v : Vec F S1x128x64x1 .f32) (x : S1x128x64x1.Idx) : k0_pay7 (F := F) v (ix2 (x 1) (x 2)) = v x := plane_of_lane v x
theorem pay8_apply (v : Vec F S1x128x64x1 .f32) (x : S1x128x64x1.Idx) : k0_pay8 (F := F) v (ix2 (x 1) (x 2)) = v x := plane_of_lane v x
theorem pay9_apply (v : Vec F S1x128x64x1 .f32) (x : S1x128x64x1.Idx) : k0_pay9 (F := F) v (ix2 (x 1) (x 2)) = v x := plane_of_lane v x
theorem pay10_apply (v : Vec F S1x128x64x1 .f32) (x : S1x128x64x1.Idx) : k0_pay10 (F := F) v (ix2 (x 1) (x 2)) = v x := plane_of_lane v x
theorem pay11_apply (v : Vec F S1x128x64x1 .f32) (x : S1x128x64x1.Idx) : k0_pay11 (F := F) v (ix2 (x 1) (x 2)) = v x := plane_of_lane v x
theorem pay12_apply (v : Vec F S1x128x64x1 .f32) (x : S1x128x64x1.Idx) : k0_pay12 (F := F) v (ix2 (x 1) (x 2)) = v x := plane_of_lane v x

/-- Each of the four stored lanes, read at `x`: the plane the body computed, at the two middle coordinates of `x`. -/
theorem pay1_apply (v22 : FVec F S128x64 .f32) (x : S1x128x64x1.Idx) :
    k0_pay1 (F := F) v22 x = v22 (ix2 (x 1) (x 2)) := lane_of_plane v22 x
theorem pay2_apply (v5 v7 v13 v15 v25 : FVec F S128x64 .f32) (x : S1x128x64x1.Idx) :
    k0_pay2 (F := F) v5 v7 v13 v15 v25 x = subf (addf v25 (mulf v5 v15)) (mulf v7 v13) (ix2 (x 1) (x 2)) :=
  lane_of_plane (subf (addf v25 (mulf v5 v15)) (mulf v7 v13)) x
theorem pay3_apply (v1 v3 v5 v7 v9 v11 v13 v15 : FVec F S128x64 .f32) (x : S1x128x64x1.Idx) :
    k0_pay3 (F := F) v1 v3 v5 v7 v9 v11 v13 v15 x
      = addf (addf (subf (mulf v1 v13) (mulf v3 v15)) (mulf v5 v9)) (mulf v7 v11) (ix2 (x 1) (x 2)) :=
  lane_of_plane (addf (addf (subf (mulf v1 v13) (mulf v3 v15)) (mulf v5 v9)) (mulf v7 v11)) x
theorem pay4_apply (v1 v3 v5 v7 v9 v11 v13 v15 : FVec F S128x64 .f32) (x : S1x128x64x1.Idx) :
    k0_pay4 (F := F) v1 v3 v5 v7 v9 v11 v13 v15 x
      = addf (subf (addf (mulf v1 v15) (mulf v3 v13)) (mulf v5 v11)) (mulf v7 v9) (ix2 (x 1) (x 2)) :=
  lane_of_plane (addf (subf (addf (mulf v1 v15) (mulf v3 v13)) (mulf v5 v11)) (mulf v7 v9)) x

/-! ## Where lane `k` of a block sits: the entries whose last coordinate is `k` -/

theorem lane0_idx (x : S1x128x64x1.Idx) : r0_0.idx x = ix4 (x 0) (x 1) (x 2) (0 : Fin 4) := by
  funext a; apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
  | ⟨3, _⟩ => show 0 + 1 * (x 3).val = 0; have h3 : (x 3).val < 1 := (x 3).isLt; omega

theorem lane1_idx (x : S1x128x64x1.Idx) : r0_1.idx x = ix4 (x 0) (x 1) (x 2) (1 : Fin 4) := by
  funext a; apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
  | ⟨3, _⟩ => show 1 + 1 * (x 3).val = 1; have h3 : (x 3).val < 1 := (x 3).isLt; omega

theorem lane2_idx (x : S1x128x64x1.Idx) : r0_2.idx x = ix4 (x 0) (x 1) (x 2) (2 : Fin 4) := by
  funext a; apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
  | ⟨3, _⟩ => show 2 + 1 * (x 3).val = 2; have h3 : (x 3).val < 1 := (x 3).isLt; omega

theorem lane3_idx (x : S1x128x64x1.Idx) : r0_3.idx x = ix4 (x 0) (x 1) (x 2) (3 : Fin 4) := by
  funext a; apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
  | ⟨3, _⟩ => show 3 + 1 * (x 3).val = 3; have h3 : (x 3).val < 1 := (x 3).isLt; omega

/-! ## The four stored components -/

/-- The w component: what the body stores in lane 0 of its output block is, entry by entry, component 0 of the product
    of the quaternions the two input blocks store at the same leading coordinates. -/
theorem component0 (x0 x1 : Vec F S1x128x64x4 .f32) (x : S1x128x64x1.Idx) :
    k0_pay1 (F := F) (k0_pay13 (F := F) (View.ld x0 r0_0) (View.ld x0 r0_1) (View.ld x0 r0_2) (View.ld x0 r0_3) (View.ld x1 r0_0) (View.ld x1 r0_1) (View.ld x1 r0_2) (View.ld x1 r0_3)) x
      = arrayMul (F := F) x0 x1 (r0_0.emb x) := by
  have hemb : r0_0.emb x = r0_0.idx x := rfl
  rw [hemb]
  rw [pay1_apply]
  simp only [k0_pay13, k0_pay14, subf, mulf, addf, pay5_apply, pay6_apply, pay7_apply, pay8_apply, pay9_apply, pay10_apply, pay11_apply, pay12_apply, View.ld]
  rw [lane0_idx, lane1_idx, lane2_idx, lane3_idx]
  rfl

/-- The x component: what the body stores in lane 1 of its output block is, entry by entry, component 1 of the product
    of the quaternions the two input blocks store at the same leading coordinates. -/
theorem component1 (x0 x1 : Vec F S1x128x64x4 .f32) (x : S1x128x64x1.Idx) :
    k0_pay2 (F := F) (k0_pay7 (F := F) (View.ld x0 r0_2)) (k0_pay8 (F := F) (View.ld x0 r0_3)) (k0_pay11 (F := F) (View.ld x1 r0_2)) (k0_pay12 (F := F) (View.ld x1 r0_3)) (k0_pay14 (F := F) (View.ld x0 r0_0) (View.ld x0 r0_1) (View.ld x1 r0_0) (View.ld x1 r0_1)) x
      = arrayMul (F := F) x0 x1 (r0_1.emb x) := by
  have hemb : r0_1.emb x = r0_1.idx x := rfl
  rw [hemb]
  rw [pay2_apply]
  simp only [k0_pay13, k0_pay14, subf, mulf, addf, pay5_apply, pay6_apply, pay7_apply, pay8_apply, pay9_apply, pay10_apply, pay11_apply, pay12_apply, View.ld]
  rw [lane0_idx, lane1_idx, lane2_idx, lane3_idx]
  rfl

/-- The y component: what the body stores in lane 2 of its output block is, entry by entry, component 2 of the product
    of the quaternions the two input blocks store at the same leading coordinates. -/
theorem component2 (x0 x1 : Vec F S1x128x64x4 .f32) (x : S1x128x64x1.Idx) :
    k0_pay3 (F := F) (k0_pay5 (F := F) (View.ld x0 r0_0)) (k0_pay6 (F := F) (View.ld x0 r0_1)) (k0_pay7 (F := F) (View.ld x0 r0_2)) (k0_pay8 (F := F) (View.ld x0 r0_3)) (k0_pay9 (F := F) (View.ld x1 r0_0)) (k0_pay10 (F := F) (View.ld x1 r0_1)) (k0_pay11 (F := F) (View.ld x1 r0_2)) (k0_pay12 (F := F) (View.ld x1 r0_3)) x
      = arrayMul (F := F) x0 x1 (r0_2.emb x) := by
  have hemb : r0_2.emb x = r0_2.idx x := rfl
  rw [hemb]
  rw [pay3_apply]
  simp only [k0_pay13, k0_pay14, subf, mulf, addf, pay5_apply, pay6_apply, pay7_apply, pay8_apply, pay9_apply, pay10_apply, pay11_apply, pay12_apply, View.ld]
  rw [lane0_idx, lane1_idx, lane2_idx, lane3_idx]
  rfl

/-- The z component: what the body stores in lane 3 of its output block is, entry by entry, component 3 of the product
    of the quaternions the two input blocks store at the same leading coordinates. -/
theorem component3 (x0 x1 : Vec F S1x128x64x4 .f32) (x : S1x128x64x1.Idx) :
    k0_pay4 (F := F) (k0_pay5 (F := F) (View.ld x0 r0_0)) (k0_pay6 (F := F) (View.ld x0 r0_1)) (k0_pay7 (F := F) (View.ld x0 r0_2)) (k0_pay8 (F := F) (View.ld x0 r0_3)) (k0_pay9 (F := F) (View.ld x1 r0_0)) (k0_pay10 (F := F) (View.ld x1 r0_1)) (k0_pay11 (F := F) (View.ld x1 r0_2)) (k0_pay12 (F := F) (View.ld x1 r0_3)) x
      = arrayMul (F := F) x0 x1 (r0_3.emb x) := by
  have hemb : r0_3.emb x = r0_3.idx x := rfl
  rw [hemb]
  rw [pay4_apply]
  simp only [k0_pay13, k0_pay14, subf, mulf, addf, pay5_apply, pay6_apply, pay7_apply, pay8_apply, pay9_apply, pay10_apply, pay11_apply, pay12_apply, View.ld]
  rw [lane0_idx, lane1_idx, lane2_idx, lane3_idx]
  rfl

/-! ## The block -/

/-- The block the body leaves is the product of the two input blocks: each of the four stores writes one component's
    lane of that product, and the four lanes cover the block. -/
theorem block_eq (x0 x1 : Vec F S1x128x64x4 .f32) : out0_2 (F := F) x0 x1 = arrayMul (F := F) x0 x1 := by
  funext y
  unfold out0_2
  refine View.canon_apply_of_pieces (arrayMul (F := F) x0 x1) _ ?_ y (cover0_2 _ _ _ _ y)
  intro p hp x
  simp only [List.mem_cons, List.not_mem_nil, or_false] at hp
  rcases hp with rfl | rfl | rfl | rfl
  · exact component3 x0 x1 x
  · exact component2 x0 x1 x
  · exact component1 x0 x1 x
  · exact component0 x0 x1 x

end Cert.KernelIdeal.Block

end
-- ==== Proof.KernelGrid.lean ====
/-
  Which block each grid point works on.

  The grid has 32 × 32 points, run in row-major order, so point number `t` has coordinates (t / 32, t mod 32). All three
  windows — the two inputs and the output — use the same index map: at coordinates (b, s) the block index is
  (b, s, 0, 0), with blocks of shape [1, 128, 64, 4]. So at point `t` each window's block is batch row t / 32, the
  128 sequence positions from 128 · (t mod 32) on, and all of the last two axes. The index maps are printed with
  32-bit words; that those words are the coordinates themselves is decided here once, point by point.
-/
import proofs.«103763_j32401233281622_2_alg».proof.Proof.Gen.KernelIdeal.Points

noncomputable section

namespace Cert.KernelIdeal.Grid

open Cert.KernelIdeal Cert.KernelIdeal.Gen Idealize.ShloMosaic

/-- At point `t` every window's block index is (t / 32, t mod 32, 0, 0). -/
theorem index_facts : ∀ t : Fin cfg0.N,
    (win0_0.index t (0 : Fin 4) = t.val / 32 ∧ win0_0.index t (1 : Fin 4) = t.val % 32
      ∧ win0_0.index t (2 : Fin 4) = 0 ∧ win0_0.index t (3 : Fin 4) = 0)
    ∧ (win0_1.index t (0 : Fin 4) = t.val / 32 ∧ win0_1.index t (1 : Fin 4) = t.val % 32
      ∧ win0_1.index t (2 : Fin 4) = 0 ∧ win0_1.index t (3 : Fin 4) = 0)
    ∧ (win0_2.index t (0 : Fin 4) = t.val / 32 ∧ win0_2.index t (1 : Fin 4) = t.val % 32
      ∧ win0_2.index t (2 : Fin 4) = 0 ∧ win0_2.index t (3 : Fin 4) = 0) :=
  (by decide +kernel : ∀ t : Fin grid0.N, _)

end Cert.KernelIdeal.Grid

end
-- ==== Proof.KernelArray.lean ====
/-
  From blocks to the whole array.

  At grid point `t` the pipeline hands the body block `t` of each input and writes back what the body leaves as block
  `t` of the output. The three windows use one index map (Proof/KernelGrid.lean), so entry `j` of the output block and
  the entries of the two input blocks with the same three leading coordinates all sit at the same leading coordinates
  of their arrays, and the lane of `j` is its last coordinate in the array. The block the body leaves is the product of
  the two input blocks (Proof/KernelBlock.lean); a product's entry depends only on the two quaternions stored at its
  leading coordinates; hence what point `t` writes back is block `t` of the product of the two WHOLE argument arrays.
  The blocks tile the output array — index (b, s, d, k) lies in the block of point 32·b + s / 128 — so after the run the
  output array is that product, and the arguments are unchanged.
-/
import proofs.«103763_j32401233281622_2_alg».proof.Proof.Gen.KernelIdeal.Value
import proofs.«103763_j32401233281622_2_alg».proof.Proof.KernelBlock
import proofs.«103763_j32401233281622_2_alg».proof.Proof.KernelGrid
import Idealize.ShloMosaic.Lib.Pipeline.Value
import Idealize.ShloMosaic.Lib.ValueIdx

noncomputable section

namespace Cert.KernelIdeal.Array

open Cert.KernelIdeal Cert.KernelIdeal.Gen Idealize.ShloMosaic Idealize.ShloMosaic.TcCoe Idealize.SL.Sem
open Idealize.ShloMosaic.ValueIdx Cert.Quaternion
open Idealize.ShloMosaic.Pipeline (Dat)

variable {F : FTy → Type} [FloatOps F]
variable (m : (ℓ : Loc nD τ sig) → Buf (Elt F) ℓ) (ρ : Dev nD → PrngReg)

/-- The product of the two argument arrays as the region finds them. -/
abbrev product (c : Dev nD) : S32x4096x64x4.Idx → Elt F .f32 :=
  arrayMul (F := F) (A := 32) (B := 4096) (C := 64) (V m c main_arg0) (V m c main_arg1)

/-- What point `t` writes back is block `t` of the product of the argument arrays. -/
theorem flushed_eq (c : Dev nD) (t : Fin cfg0.N) :
    (dats m 0 c).flushed 2 t = ((cfg0.win 2).blk t).view.read (Elt F) (product m c) := by
  rw [Value.flushed2, Block.block_eq]
  obtain ⟨⟨a0, a1, a2, a3⟩, ⟨b0, b1, b2, b3⟩, ⟨o0, o1, o2, o3⟩⟩ := Grid.index_facts t
  funext j
  -- where entry `j` of the output block sits in the array
  let e : S32x4096x64x4.Idx := ((cfg0.win 2).blk t).view.emb j
  -- the input blocks' entries with the leading coordinates of `j` sit at the leading coordinates of `e`, lane for lane
  have hA : ∀ l : Fin 4, ((cfg0.win 0).blk t).view.emb (ix4 (n0 := 1) (n1 := 128) (n2 := 64) (n3 := 4) (j 0) (j 1) (j 2) l)
      = ix4 (n0 := 32) (n1 := 4096) (n2 := 64) (n3 := 4) (e 0) (e 1) (e 2) l := by
    intro l; funext a; apply Fin.ext
    match a with
    | ⟨0, _⟩ => show win0_0.index t (0 : Fin 4) * 1 + 1 * (j 0).val = win0_2.index t (0 : Fin 4) * 1 + 1 * (j 0).val; omega
    | ⟨1, _⟩ => show win0_0.index t (1 : Fin 4) * 128 + 1 * (j 1).val = win0_2.index t (1 : Fin 4) * 128 + 1 * (j 1).val; omega
    | ⟨2, _⟩ => show win0_0.index t (2 : Fin 4) * 64 + 1 * (j 2).val = win0_2.index t (2 : Fin 4) * 64 + 1 * (j 2).val; omega
    | ⟨3, _⟩ => show win0_0.index t (3 : Fin 4) * 4 + 1 * l.val = l.val; omega
  have hB : ∀ l : Fin 4, ((cfg0.win 1).blk t).view.emb (ix4 (n0 := 1) (n1 := 128) (n2 := 64) (n3 := 4) (j 0) (j 1) (j 2) l)
      = ix4 (n0 := 32) (n1 := 4096) (n2 := 64) (n3 := 4) (e 0) (e 1) (e 2) l := by
    intro l; funext a; apply Fin.ext
    match a with
    | ⟨0, _⟩ => show win0_1.index t (0 : Fin 4) * 1 + 1 * (j 0).val = win0_2.index t (0 : Fin 4) * 1 + 1 * (j 0).val; omega
    | ⟨1, _⟩ => show win0_1.index t (1 : Fin 4) * 128 + 1 * (j 1).val = win0_2.index t (1 : Fin 4) * 128 + 1 * (j 1).val; omega
    | ⟨2, _⟩ => show win0_1.index t (2 : Fin 4) * 64 + 1 * (j 2).val = win0_2.index t (2 : Fin 4) * 64 + 1 * (j 2).val; omega
    | ⟨3, _⟩ => show win0_1.index t (3 : Fin 4) * 4 + 1 * l.val = l.val; omega
  -- and the lane of `j` is the lane of `e`
  have h3 : (j 3).val = (e 3).val := by
    show (j 3).val = win0_2.index t (3 : Fin 4) * 4 + 1 * (j 3).val; omega
  show mul (stored (F := F) (A := 1) (B := 128) (C := 64) (iblk m c 0 t) (j 0) (j 1) (j 2)) (stored (F := F) (A := 1) (B := 128) (C := 64) (iblk m c 1 t) (j 0) (j 1) (j 2)) (j 3)
    = mul (stored (F := F) (A := 32) (B := 4096) (C := 64) (V m c main_arg0) (e 0) (e 1) (e 2)) (stored (F := F) (A := 32) (B := 4096) (C := 64) (V m c main_arg1) (e 0) (e 1) (e 2)) (e 3)
  have hp : stored (F := F) (A := 1) (B := 128) (C := 64) (iblk m c 0 t) (j 0) (j 1) (j 2)
      = stored (F := F) (A := 32) (B := 4096) (C := 64) (V m c main_arg0) (e 0) (e 1) (e 2) :=
    funext fun l => congrArg (V m c main_arg0 : S32x4096x64x4.Idx → Elt F .f32) (hA l)
  have hq : stored (F := F) (A := 1) (B := 128) (C := 64) (iblk m c 1 t) (j 0) (j 1) (j 2)
      = stored (F := F) (A := 32) (B := 4096) (C := 64) (V m c main_arg1) (e 0) (e 1) (e 2) :=
    funext fun l => congrArg (V m c main_arg1 : S32x4096x64x4.Idx → Elt F .f32) (hB l)
  have hk : (j 3 : Fin 4) = (e 3 : Fin 4) := Fin.ext h3
  rw [hp, hq]
  exact congrArg (mul _ _) hk

/-- An index of the array is in point `t`'s block iff each coordinate is in the block's range on its axis. -/
theorem mem_blk (t : Fin cfg0.N) (i : S32x4096x64x4.Idx) :
    i ∈ ((cfg0.win 2).blk t).view.set ↔ ∀ a : Fin 4, win0_2.index t a * S1x128x64x4.size a ≤ (i a).val ∧ (i a).val < win0_2.index t a * S1x128x64x4.size a + S1x128x64x4.size a := by
  show i ∈ ((View.whole main_v0).slice (win0_2.rect t)).set ↔ _
  rw [View.set_slice_whole, Rect.mem_set_unit]
  exact Iff.rfl

/-- The blocks tile the array: index (b, s, d, k) lies in the block of point 32·b + s / 128. -/
theorem cover (i : S32x4096x64x4.Idx) :
    ∃ t : Fin cfg0.N, (cfg0.win 2).flush t = true ∧ i ∈ ((cfg0.win 2).blk t).view.set := by
  have h0 : (i 0).val < 32 := (i 0).isLt
  have h1 : (i 1).val < 4096 := (i 1).isLt
  have h2 : (i 2).val < 64 := (i 2).isLt
  have h3 : (i 3).val < 4 := (i 3).isLt
  have hN : cfg0.N = 1024 := N_0
  have hlt : (i 0).val * 32 + (i 1).val / 128 < cfg0.N := by rw [hN]; omega
  obtain ⟨-, -, o0, o1, o2, o3⟩ := Grid.index_facts ⟨(i 0).val * 32 + (i 1).val / 128, hlt⟩
  have q0 : win0_2.index ⟨(i 0).val * 32 + (i 1).val / 128, hlt⟩ (0 : Fin 4) = ((i 0).val * 32 + (i 1).val / 128) / 32 := o0
  have q1 : win0_2.index ⟨(i 0).val * 32 + (i 1).val / 128, hlt⟩ (1 : Fin 4) = ((i 0).val * 32 + (i 1).val / 128) % 32 := o1
  refine ⟨⟨(i 0).val * 32 + (i 1).val / 128, hlt⟩, flush0_2 _, ?_⟩
  rw [mem_blk]
  intro a
  match a with
  | ⟨0, _⟩ =>
    show win0_2.index ⟨(i 0).val * 32 + (i 1).val / 128, hlt⟩ (0 : Fin 4) * 1 ≤ (i 0).val ∧ (i 0).val < win0_2.index ⟨(i 0).val * 32 + (i 1).val / 128, hlt⟩ (0 : Fin 4) * 1 + 1
    omega
  | ⟨1, _⟩ =>
    show win0_2.index ⟨(i 0).val * 32 + (i 1).val / 128, hlt⟩ (1 : Fin 4) * 128 ≤ (i 1).val ∧ (i 1).val < win0_2.index ⟨(i 0).val * 32 + (i 1).val / 128, hlt⟩ (1 : Fin 4) * 128 + 128
    omega
  | ⟨2, _⟩ =>
    show win0_2.index ⟨(i 0).val * 32 + (i 1).val / 128, hlt⟩ (2 : Fin 4) * 64 ≤ (i 2).val ∧ (i 2).val < win0_2.index ⟨(i 0).val * 32 + (i 1).val / 128, hlt⟩ (2 : Fin 4) * 64 + 64
    omega
  | ⟨3, _⟩ =>
    show win0_2.index ⟨(i 0).val * 32 + (i 1).val / 128, hlt⟩ (3 : Fin 4) * 4 ≤ (i 3).val ∧ (i 3).val < win0_2.index ⟨(i 0).val * 32 + (i 1).val / 128, hlt⟩ (3 : Fin 4) * 4 + 4
    omega

/-- After the run the output array is the product of the argument arrays. -/
theorem final (c : Dev nD) : (dats m 0 c).arrAt 2 cfg0.N = product m c :=
  (dats m 0 c).arrAt_eq_of_cover 2 (product m c) (fun t _ => flushed_eq m c t) cover

/-- Every weakly fair execution of the kernel's program terminates with the output array at the product of the
    argument arrays and the arguments unchanged. -/
theorem run : θ_run defs (onTc (τ := τ) (main (F := F))) ⟨m, fun _ => 0, ρ⟩ fun r => ∀ c : Dev nD,
      r.2.mem ((c : Thread nD τ).loc main_v0) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Array

end
-- ==== Proof.ReferenceProduct.lean ====
/-
  The reference's result is the product of its two arguments.

  The reference takes each of the eight lanes of its two arguments by slicing the last axis at one position and
  dropping that axis, so lane `k` of an argument is an array of shape [32, 4096, 64] whose entry at (b, s, d) is the
  argument's entry at (b, s, d, k): dropping a unit axis keeps the row-major position, and three coordinates below
  their extents are recovered from that position by the usual divisions. It then forms the four components of the
  product entry by entry, each summed from the left in the order of Proof/Quaternion.lean, gives each a trailing unit
  axis, and joins the four along that axis in the order w, x, y, z. Joining unit-extent pieces along an axis puts
  piece `k` at position `k` of that axis. So the entry of the result at (b, s, d, k) is component `k` of the product of
  the quaternions the two arguments store at (b, s, d): the result is the product of the two argument arrays, for
  every reading of the float operations.
-/
import proofs.«103763_j32401233281622_2_alg».proof.Proof.Gen.ReferenceIdeal.Read
import proofs.«103763_j32401233281622_2_alg».proof.Proof.Quaternion
import Idealize.ShloMosaic.Lib.Pipeline.Value
import Idealize.ShloMosaic.Lib.ValueIdx

noncomputable section

namespace Cert.ReferenceIdeal.Product

open Cert.ReferenceIdeal Cert.ReferenceIdeal.Gen Cert.ReferenceIdeal.Read Idealize.ShloMosaic
open Idealize.ShloMosaic.ValueIdx Cert.Quaternion

variable {F : FTy → Type} [FloatOps F]

/-! ## The eight lanes: a slice of the last axis at position `k`, its unit axis dropped, at (b, s, d) -/

theorem lane_v1 (x0 : (⟨S32x4096x64x4, .f32⟩ : BufTy).Contents (Elt F)) (b : Fin 32) (s : Fin 4096) (d : Fin 64) :
    val_main_v1 (F := F) x0 (ix3 b s d) = x0 (ix4 b s d (0 : Fin 4)) := by
  rw [val_main_v1_apply, val_main_v0_apply]
  refine congrArg x0 (funext fun a => Fin.ext ?_)
  have hb : b.val < 32 := b.isLt
  have hs : s.val < 4096 := s.isLt
  have hd : d.val < 64 := d.isLt
  match a with
  | ⟨0, _⟩ => show ((b.val * 4096 + s.val) * 64 + d.val) / 262144 = b.val; omega
  | ⟨1, _⟩ => show ((b.val * 4096 + s.val) * 64 + d.val) / 64 % 4096 = s.val; omega
  | ⟨2, _⟩ => show ((b.val * 4096 + s.val) * 64 + d.val) / 1 % 64 = d.val; omega
  | ⟨3, _⟩ => show (0 : Nat) = 0; rfl

theorem lane_v3 (x0 : (⟨S32x4096x64x4, .f32⟩ : BufTy).Contents (Elt F)) (b : Fin 32) (s : Fin 4096) (d : Fin 64) :
    val_main_v3 (F := F) x0 (ix3 b s d) = x0 (ix4 b s d (1 : Fin 4)) := by
  rw [val_main_v3_apply, val_main_v2_apply]
  refine congrArg x0 (funext fun a => Fin.ext ?_)
  have hb : b.val < 32 := b.isLt
  have hs : s.val < 4096 := s.isLt
  have hd : d.val < 64 := d.isLt
  match a with
  | ⟨0, _⟩ => show ((b.val * 4096 + s.val) * 64 + d.val) / 262144 = b.val; omega
  | ⟨1, _⟩ => show ((b.val * 4096 + s.val) * 64 + d.val) / 64 % 4096 = s.val; omega
  | ⟨2, _⟩ => show ((b.val * 4096 + s.val) * 64 + d.val) / 1 % 64 = d.val; omega
  | ⟨3, _⟩ => show 1 + 0 = 1; rfl

theorem lane_v5 (x0 : (⟨S32x4096x64x4, .f32⟩ : BufTy).Contents (Elt F)) (b : Fin 32) (s : Fin 4096) (d : Fin 64) :
    val_main_v5 (F := F) x0 (ix3 b s d) = x0 (ix4 b s d (2 : Fin 4)) := by
  rw [val_main_v5_apply, val_main_v4_apply]
  refine congrArg x0 (funext fun a => Fin.ext ?_)
  have hb : b.val < 32 := b.isLt
  have hs : s.val < 4096 := s.isLt
  have hd : d.val < 64 := d.isLt
  match a with
  | ⟨0, _⟩ => show ((b.val * 4096 + s.val) * 64 + d.val) / 262144 = b.val; omega
  | ⟨1, _⟩ => show ((b.val * 4096 + s.val) * 64 + d.val) / 64 % 4096 = s.val; omega
  | ⟨2, _⟩ => show ((b.val * 4096 + s.val) * 64 + d.val) / 1 % 64 = d.val; omega
  | ⟨3, _⟩ => show 2 + 0 = 2; rfl

theorem lane_v7 (x0 : (⟨S32x4096x64x4, .f32⟩ : BufTy).Contents (Elt F)) (b : Fin 32) (s : Fin 4096) (d : Fin 64) :
    val_main_v7 (F := F) x0 (ix3 b s d) = x0 (ix4 b s d (3 : Fin 4)) := by
  rw [val_main_v7_apply, val_main_v6_apply]
  refine congrArg x0 (funext fun a => Fin.ext ?_)
  have hb : b.val < 32 := b.isLt
  have hs : s.val < 4096 := s.isLt
  have hd : d.val < 64 := d.isLt
  match a with
  | ⟨0, _⟩ => show ((b.val * 4096 + s.val) * 64 + d.val) / 262144 = b.val; omega
  | ⟨1, _⟩ => show ((b.val * 4096 + s.val) * 64 + d.val) / 64 % 4096 = s.val; omega
  | ⟨2, _⟩ => show ((b.val * 4096 + s.val) * 64 + d.val) / 1 % 64 = d.val; omega
  | ⟨3, _⟩ => show 3 + 0 = 3; rfl

theorem lane_v9 (x1 : (⟨S32x4096x64x4, .f32⟩ : BufTy).Contents (Elt F)) (b : Fin 32) (s : Fin 4096) (d : Fin 64) :
    val_main_v9 (F := F) x1 (ix3 b s d) = x1 (ix4 b s d (0 : Fin 4)) := by
  rw [val_main_v9_apply, val_main_v8_apply]
  refine congrArg x1 (funext fun a => Fin.ext ?_)
  have hb : b.val < 32 := b.isLt
  have hs : s.val < 4096 := s.isLt
  have hd : d.val < 64 := d.isLt
  match a with
  | ⟨0, _⟩ => show ((b.val * 4096 + s.val) * 64 + d.val) / 262144 = b.val; omega
  | ⟨1, _⟩ => show ((b.val * 4096 + s.val) * 64 + d.val) / 64 % 4096 = s.val; omega
  | ⟨2, _⟩ => show ((b.val * 4096 + s.val) * 64 + d.val) / 1 % 64 = d.val; omega
  | ⟨3, _⟩ => show (0 : Nat) = 0; rfl

theorem lane_v11 (x1 : (⟨S32x4096x64x4, .f32⟩ : BufTy).Contents (Elt F)) (b : Fin 32) (s : Fin 4096) (d : Fin 64) :
    val_main_v11 (F := F) x1 (ix3 b s d) = x1 (ix4 b s d (1 : Fin 4)) := by
  rw [val_main_v11_apply, val_main_v10_apply]
  refine congrArg x1 (funext fun a => Fin.ext ?_)
  have hb : b.val < 32 := b.isLt
  have hs : s.val < 4096 := s.isLt
  have hd : d.val < 64 := d.isLt
  match a with
  | ⟨0, _⟩ => show ((b.val * 4096 + s.val) * 64 + d.val) / 262144 = b.val; omega
  | ⟨1, _⟩ => show ((b.val * 4096 + s.val) * 64 + d.val) / 64 % 4096 = s.val; omega
  | ⟨2, _⟩ => show ((b.val * 4096 + s.val) * 64 + d.val) / 1 % 64 = d.val; omega
  | ⟨3, _⟩ => show 1 + 0 = 1; rfl

theorem lane_v13 (x1 : (⟨S32x4096x64x4, .f32⟩ : BufTy).Contents (Elt F)) (b : Fin 32) (s : Fin 4096) (d : Fin 64) :
    val_main_v13 (F := F) x1 (ix3 b s d) = x1 (ix4 b s d (2 : Fin 4)) := by
  rw [val_main_v13_apply, val_main_v12_apply]
  refine congrArg x1 (funext fun a => Fin.ext ?_)
  have hb : b.val < 32 := b.isLt
  have hs : s.val < 4096 := s.isLt
  have hd : d.val < 64 := d.isLt
  match a with
  | ⟨0, _⟩ => show ((b.val * 4096 + s.val) * 64 + d.val) / 262144 = b.val; omega
  | ⟨1, _⟩ => show ((b.val * 4096 + s.val) * 64 + d.val) / 64 % 4096 = s.val; omega
  | ⟨2, _⟩ => show ((b.val * 4096 + s.val) * 64 + d.val) / 1 % 64 = d.val; omega
  | ⟨3, _⟩ => show 2 + 0 = 2; rfl

theorem lane_v15 (x1 : (⟨S32x4096x64x4, .f32⟩ : BufTy).Contents (Elt F)) (b : Fin 32) (s : Fin 4096) (d : Fin 64) :
    val_main_v15 (F := F) x1 (ix3 b s d) = x1 (ix4 b s d (3 : Fin 4)) := by
  rw [val_main_v15_apply, val_main_v14_apply]
  refine congrArg x1 (funext fun a => Fin.ext ?_)
  have hb : b.val < 32 := b.isLt
  have hs : s.val < 4096 := s.isLt
  have hd : d.val < 64 := d.isLt
  match a with
  | ⟨0, _⟩ => show ((b.val * 4096 + s.val) * 64 + d.val) / 262144 = b.val; omega
  | ⟨1, _⟩ => show ((b.val * 4096 + s.val) * 64 + d.val) / 64 % 4096 = s.val; omega
  | ⟨2, _⟩ => show ((b.val * 4096 + s.val) * 64 + d.val) / 1 % 64 = d.val; omega
  | ⟨3, _⟩ => show 3 + 0 = 3; rfl

/-! ## The four components -/

/-- The w component, as the reference joins it: at leading coordinates `(b, s, d)` it is component 0 of the product of
    the two quaternions the arguments store there. -/
theorem component0 (x0 x1 : (⟨S32x4096x64x4, .f32⟩ : BufTy).Contents (Elt F)) (b : Fin 32) (s : Fin 4096) (d : Fin 64) :
    val_main_v44 (F := F) x0 x1 (ix4 (n0 := 32) (n1 := 4096) (n2 := 64) (n3 := 1) b s d 0)
      = mul (stored (F := F) (A := 32) (B := 4096) (C := 64) x0 b s d) (stored (F := F) (A := 32) (B := 4096) (C := 64) x1 b s d) (0 : Fin 4) := by
  rw [val_main_v44_apply]
  have hi : idx_main_v44 (ix4 (n0 := 32) (n1 := 4096) (n2 := 64) (n3 := 1) b s d 0) = ix3 b s d := by
    funext a; match a with | ⟨0, _⟩ => rfl | ⟨1, _⟩ => rfl | ⟨2, _⟩ => rfl
  rw [hi]
  simp only [val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, lane_v1, lane_v3, lane_v5, lane_v7, lane_v9, lane_v11, lane_v13, lane_v15]
  rfl

/-- The x component, as the reference joins it: at leading coordinates `(b, s, d)` it is component 1 of the product of
    the two quaternions the arguments store there. -/
theorem component1 (x0 x1 : (⟨S32x4096x64x4, .f32⟩ : BufTy).Contents (Elt F)) (b : Fin 32) (s : Fin 4096) (d : Fin 64) :
    val_main_v45 (F := F) x0 x1 (ix4 (n0 := 32) (n1 := 4096) (n2 := 64) (n3 := 1) b s d 0)
      = mul (stored (F := F) (A := 32) (B := 4096) (C := 64) x0 b s d) (stored (F := F) (A := 32) (B := 4096) (C := 64) x1 b s d) (1 : Fin 4) := by
  rw [val_main_v45_apply]
  have hi : idx_main_v45 (ix4 (n0 := 32) (n1 := 4096) (n2 := 64) (n3 := 1) b s d 0) = ix3 b s d := by
    funext a; match a with | ⟨0, _⟩ => rfl | ⟨1, _⟩ => rfl | ⟨2, _⟩ => rfl
  rw [hi]
  simp only [val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, lane_v1, lane_v3, lane_v5, lane_v7, lane_v9, lane_v11, lane_v13, lane_v15]
  rfl

/-- The y component, as the reference joins it: at leading coordinates `(b, s, d)` it is component 2 of the product of
    the two quaternions the arguments store there. -/
theorem component2 (x0 x1 : (⟨S32x4096x64x4, .f32⟩ : BufTy).Contents (Elt F)) (b : Fin 32) (s : Fin 4096) (d : Fin 64) :
    val_main_v46 (F := F) x0 x1 (ix4 (n0 := 32) (n1 := 4096) (n2 := 64) (n3 := 1) b s d 0)
      = mul (stored (F := F) (A := 32) (B := 4096) (C := 64) x0 b s d) (stored (F := F) (A := 32) (B := 4096) (C := 64) x1 b s d) (2 : Fin 4) := by
  rw [val_main_v46_apply]
  have hi : idx_main_v46 (ix4 (n0 := 32) (n1 := 4096) (n2 := 64) (n3 := 1) b s d 0) = ix3 b s d := by
    funext a; match a with | ⟨0, _⟩ => rfl | ⟨1, _⟩ => rfl | ⟨2, _⟩ => rfl
  rw [hi]
  simp only [val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, lane_v1, lane_v3, lane_v5, lane_v7, lane_v9, lane_v11, lane_v13, lane_v15]
  rfl

/-- The z component, as the reference joins it: at leading coordinates `(b, s, d)` it is component 3 of the product of
    the two quaternions the arguments store there. -/
theorem component3 (x0 x1 : (⟨S32x4096x64x4, .f32⟩ : BufTy).Contents (Elt F)) (b : Fin 32) (s : Fin 4096) (d : Fin 64) :
    val_main_v47 (F := F) x0 x1 (ix4 (n0 := 32) (n1 := 4096) (n2 := 64) (n3 := 1) b s d 0)
      = mul (stored (F := F) (A := 32) (B := 4096) (C := 64) x0 b s d) (stored (F := F) (A := 32) (B := 4096) (C := 64) x1 b s d) (3 : Fin 4) := by
  rw [val_main_v47_apply]
  have hi : idx_main_v47 (ix4 (n0 := 32) (n1 := 4096) (n2 := 64) (n3 := 1) b s d 0) = ix3 b s d := by
    funext a; match a with | ⟨0, _⟩ => rfl | ⟨1, _⟩ => rfl | ⟨2, _⟩ => rfl
  rw [hi]
  simp only [val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, lane_v1, lane_v3, lane_v5, lane_v7, lane_v9, lane_v11, lane_v13, lane_v15]
  rfl

/-! ## The join -/

/-- The four pieces the reference joins along the last axis, in order. -/
def piece (x0 x1 : (⟨S32x4096x64x4, .f32⟩ : BufTy).Contents (Elt F)) : Fin 4 → (S32x4096x64x1.Idx → Elt F .f32) :=
  ![val_main_v44 (F := F) x0 x1, val_main_v45 (F := F) x0 x1, val_main_v46 (F := F) x0 x1, val_main_v47 (F := F) x0 x1]

/-- Piece `k` at leading coordinates `(b, s, d)` is component `k` of the product of the quaternions stored there. -/
theorem piece_apply (x0 x1 : (⟨S32x4096x64x4, .f32⟩ : BufTy).Contents (Elt F)) (b : Fin 32) (s : Fin 4096) (d : Fin 64) (k : Fin 4) :
    piece (F := F) x0 x1 k (ix4 (n0 := 32) (n1 := 4096) (n2 := 64) (n3 := 1) b s d 0)
      = mul (stored (F := F) (A := 32) (B := 4096) (C := 64) x0 b s d) (stored (F := F) (A := 32) (B := 4096) (C := 64) x1 b s d) k := by
  match k with
  | ⟨0, _⟩ => exact component0 x0 x1 b s d
  | ⟨1, _⟩ => exact component1 x0 x1 b s d
  | ⟨2, _⟩ => exact component2 x0 x1 b s d
  | ⟨3, _⟩ => exact component3 x0 x1 b s d

/-- The reference's result, as a function of its two arguments, is their product. -/
theorem result_eq (x0 x1 : (⟨S32x4096x64x4, .f32⟩ : BufTy).Contents (Elt F)) :
    val_main_v48 (F := F) x0 x1 = arrayMul (F := F) (A := 32) (B := 4096) (C := 64) x0 x1 := by
  funext j
  obtain ⟨b, s, d, k, rfl⟩ : ∃ (b : Fin 32) (s : Fin 4096) (d : Fin 64) (k : Fin 4), j = ix4 b s d k :=
    ⟨j 0, j 1, j 2, j 3, eq_ix4 j⟩
  -- the joined axis picks piece `k`, read at the same leading coordinates
  have hjoin : val_main_v48 (F := F) x0 x1 (ix4 b s d k)
      = piece (F := F) x0 x1 k (ix4 (n0 := 32) (n1 := 4096) (n2 := 64) (n3 := 1) b s d 0) :=
    concatenate_ofFn_unit_apply (t := S32x4096x64x4) (s₁ := S32x4096x64x1) (3 : Fin 4) (piece (F := F) x0 x1)
      concatenates_S32x4096x64x1_S32x4096x64x1_S32x4096x64x1_S32x4096x64x1_S32x4096x64x4_d3 rfl rfl
      (ix4 b s d k) k rfl (ix4 (n0 := 32) (n1 := 4096) (n2 := 64) (n3 := 1) b s d 0)
      (fun a ha => match a, ha with
        | ⟨0, _⟩, _ => rfl
        | ⟨1, _⟩, _ => rfl
        | ⟨2, _⟩, _ => rfl
        | ⟨3, _⟩, h => absurd rfl h)
  rw [hjoin, piece_apply]
  rfl

end Cert.ReferenceIdeal.Product

end
-- ==== Proof.lean ====
/-
  The kernel and its reference compute the same array.

  Both programs take two arrays of quaternions of shape [32, 4096, 64, 4], one quaternion (w, x, y, z) along the last
  axis, and return the array of their Hamilton products (Proof/Quaternion.lean), every component summed from the left
  in one and the same order.

  The kernel works block by block: at each of 32 × 32 grid points it is handed one block of shape [1, 128, 64, 4] of
  each argument, forms the product of the two blocks lane by lane (Proof/KernelBlock.lean) and writes it back as the
  block of the output with the same index (Proof/KernelGrid.lean); an entry of a product depends only on the two
  quaternions at its own leading coordinates, and the blocks tile the array, so the output array ends as the product of
  the two whole argument arrays (Proof/KernelArray.lean). The reference takes the eight lanes of the whole arrays, forms
  the four components and joins them along the last axis, which is the same product (Proof/ReferenceProduct.lean).

  Since both sides apply the same operations to the same entries in the same order, they agree for every reading of
  the float operations, the extended reals among them, and no law of arithmetic and no finiteness of the inputs is
  used. The idealized kernel is the kernel's own text read over the extended reals (no operation was rewritten), so
  there is nothing to preserve; and each program runs to the end without fault and leaves its arguments unchanged.
-/
import proofs.«103763_j32401233281622_2_alg».proof.Defs
import proofs.«103763_j32401233281622_2_alg».proof.Proof.Gen.Kernel
import proofs.«103763_j32401233281622_2_alg».proof.Proof.Gen.Kernel.Skeleton
import proofs.«103763_j32401233281622_2_alg».proof.Proof.Gen.Kernel.Launch
import proofs.«103763_j32401233281622_2_alg».proof.Proof.Gen.Kernel.Points
import proofs.«103763_j32401233281622_2_alg».proof.Proof.Gen.Kernel.Frame
import proofs.«103763_j32401233281622_2_alg».proof.Proof.Gen.KernelIdeal
import proofs.«103763_j32401233281622_2_alg».proof.Proof.Gen.KernelIdeal.Skeleton
import proofs.«103763_j32401233281622_2_alg».proof.Proof.Gen.KernelIdeal.Launch
import proofs.«103763_j32401233281622_2_alg».proof.Proof.Gen.KernelIdeal.Points
import proofs.«103763_j32401233281622_2_alg».proof.Proof.Gen.KernelIdeal.Frame
import proofs.«103763_j32401233281622_2_alg».proof.Proof.Gen.ReferenceIdeal
import proofs.«103763_j32401233281622_2_alg».proof.Proof.Gen.Pre_finite_inputs
import proofs.«103763_j32401233281622_2_alg».proof.Proof.Gen.KernelIdeal.Value
import proofs.«103763_j32401233281622_2_alg».proof.Proof.Gen.ReferenceIdeal.Run
import proofs.«103763_j32401233281622_2_alg».proof.Proof.Gen.ReferenceIdeal.Read
import proofs.«103763_j32401233281622_2_alg».proof.Proof.KernelArray
import proofs.«103763_j32401233281622_2_alg».proof.Proof.ReferenceProduct
import Idealize.ShloMosaic.Adequacy
import Idealize.ShloMosaic.Init

noncomputable section

namespace Cert.Proof

open Idealize.ShloMosaic Idealize.SL.Sem

/-- The kernel's program runs to the end, faults nowhere and leaves its arguments unchanged. -/
theorem frame_kernel : Cert.frame_Kernel := fun m ρ _ => Cert.Kernel.Gen.frame m ρ

/-- So does the kernel's program read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals: nothing to preserve. -/
theorem preserves : Cert.preserves_Kernel_KernelIdeal := trivial

/-- Over the extended reals, from memories that agree on the two arguments, the kernel's output array and the
    reference's result are both the product of the two argument arrays. -/
theorem algebraic : Cert.algebraic_KernelIdeal_ReferenceIdeal := by
  intro m ρ m' ρ' _ hagree
  refine ⟨fun c => Cert.KernelIdeal.Array.product (F := Ideal) m c, Cert.KernelIdeal.Array.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.Product.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
